-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 106
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x64, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000x64, .f32⟩
  | .hbm, ⟨96, _⟩ => ⟨S1700000x1, .f32⟩
  | .hbm, ⟨97, _⟩ => ⟨S1700000x64, .f32⟩
  | .hbm, ⟨98, _⟩ => ⟨S1700000x64, .f32⟩
  | .hbm, ⟨99, _⟩ => ⟨S_, .f32⟩
  | .hbm, ⟨100, _⟩ => ⟨S100000x64, .f32⟩
  | .hbm, ⟨101, _⟩ => ⟨S1700000x1, .i32⟩
  | .hbm, ⟨102, _⟩ => ⟨S100000x64, .f32⟩
  | .hbm, ⟨103, _⟩ => ⟨S1x64, .f32⟩
  | .hbm, ⟨104, _⟩ => ⟨S1x1, .f32⟩
  | .hbm, ⟨105, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S64x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S1_S1x1 : S1.ShapeCasts S1x1
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1.size a ≤ S64x1.size a
  hwx3_2 : ∀ i : grid3.Coords, EltTy.bits .f32 = 32 ∨ (Rect.block (s := S64x1) S64x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S100000x1.size a
  hwx3_4 : ∀ i : grid3.Coords, EltTy.bits .f32 = 32 ∨ (Rect.block (s := S100000x1) S5000x1.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S5000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S100000x64, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x64, .f32⟩
  | .hbm, ⟨106, _⟩ => ⟨S1700000x1, .f32⟩
  | .hbm, ⟨107, _⟩ => ⟨S1700000x64, .f32⟩
  | .hbm, ⟨108, _⟩ => ⟨S1700000x64, .f32⟩
  | .hbm, ⟨109, _⟩ => ⟨S_, .f32⟩
  | .hbm, ⟨110, _⟩ => ⟨S100000x64, .f32⟩
  | .hbm, ⟨111, _⟩ => ⟨S1700000x1, .i32⟩
  | .hbm, ⟨112, _⟩ => ⟨S100000x64, .f32⟩
  | .hbm, ⟨113, _⟩ => ⟨S1x64, .f32⟩
  | .hbm, ⟨114, _⟩ => ⟨S100000x64, .f32⟩
  | .hbm, ⟨115, _⟩ => ⟨S100000x64, .f32⟩
  | .hbm, ⟨116, _⟩ => ⟨S100000x1, .f32⟩
  | .hbm, ⟨117, _⟩ => ⟨S1x1, .f32⟩
  | .hbm, ⟨118, _⟩ => ⟨S100000x1, .f32⟩
  | .hbm, ⟨119, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel program's run, with its result buffer read.

  The program is three stretches of host operations, then four kernels with a stretch of host operations before each of
  the last three.  Its contents at every boundary are a fold from the launch memory: a stretch applies its operations,
  a kernel replaces its arrays by what its write-backs leave.  Every weakly fair execution ends with every unscoped
  buffer at the last boundary's contents; from that follow the result buffer's contents and the arguments' being unchanged.
-/
import proofs.«114022_j17540646437275_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the contents
    of the last boundary: the launch over the program's ten segments, the last thread state read against the final
    memory, and that reading handed on whole. -/
theorem buffers : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The run with the result buffer read: it ends at the last boundary's contents of `main_v76`, the ten arguments as
    launched (no host operation and no kernel writes one). -/
theorem withResult : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v76 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c)⟩)
    (buffers m ρ)

end Cert.KernelIdeal.Run

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.Layers.lean ====
/-
  The dense layers of a graph-convolution network, as functions of whole arrays on the extended reals.

  A layer multiplies every row of an activation matrix by a weight matrix.  The first layer does only that.  A hidden
  layer first adds a bias vector to every row and takes the positive part; the last layer adds its bias without the
  positive part and adds a second bias after the product.  Entry `(p, j)` of a layer's result depends on row `p` of the
  activations only, which is what lets the layer be computed on blocks of rows.

  The second half reads the host's spelling of the same layers — a `dot_general` whose left operand is the sum with a
  bias broadcast over the rows, under a `maximum` with the zero splat — as these functions.
-/
import Idealize.ShloMosaic.Lib.ValueIdx
import Idealize.ShloMosaic.Lib.Pipeline.Value
import Idealize.ShloMosaic.PureOps.Ideal.Laws
import proofs.«114022_j17540646437275_1_alg».proof.Proof.LibPlainDot

noncomputable section

namespace Cert.Layers

open Idealize.ShloMosaic Idealize.ShloMosaic.ValueIdx

variable {n k m : Nat}

/-- A matrix of extended reals with `a` rows and `b` columns. -/
abbrev Mat (a b : Nat) : Type := (⟨2, ![a, b]⟩ : Shape).Idx → EReal

/-- The extended real the float zero word denotes. -/
abbrev zero32 : EReal := Ideal.ofBits .f32 0x00000000#32

/-- Rows times a weight matrix: entry `(p, j)` is the sum over `q` of `x (p, q) · w (q, j)`. -/
def proj (x : Mat n k) (w : Mat k m) : Mat n m :=
  fun i => ∑ q : Fin k, x (ix2 (n0 := n) (i 0) q) * w (ix2 (n1 := m) q (i 1))

/-- A hidden layer: the bias `b` added to every row, the positive part, then the product with `w`. -/
def hidden (x : Mat n k) (b : Fin k → EReal) (w : Mat k m) : Mat n m :=
  fun i => ∑ q : Fin k, max (x (ix2 (n0 := n) (i 0) q) + b q) zero32 * w (ix2 (n1 := m) q (i 1))

/-- The last layer: the bias `b` added to every row, the product with `w`, then the bias `bo` added to every row. -/
def head (x : Mat n k) (b : Fin k → EReal) (w : Mat k m) (bo : Fin m → EReal) : Mat n m :=
  fun i => (∑ q : Fin k, (x (ix2 (n0 := n) (i 0) q) + b q) * w (ix2 (n1 := m) q (i 1))) + bo (i 1)

theorem proj_ix2 (x : Mat n k) (w : Mat k m) (p : Fin n) (j : Fin m) :
    proj x w (ix2 p j) = ∑ q : Fin k, x (ix2 p q) * w (ix2 q j) := rfl

theorem hidden_ix2 (x : Mat n k) (b : Fin k → EReal) (w : Mat k m) (p : Fin n) (j : Fin m) :
    hidden x b w (ix2 p j) = ∑ q : Fin k, max (x (ix2 p q) + b q) zero32 * w (ix2 q j) := rfl

theorem head_ix2 (x : Mat n k) (b : Fin k → EReal) (w : Mat k m) (bo : Fin m → EReal) (p : Fin n) (j : Fin m) :
    head x b w bo (ix2 p j) = (∑ q : Fin k, (x (ix2 p q) + b q) * w (ix2 q j)) + bo j := rfl

/-! ## The host's spelling -/

/-- A bias vector `[k]` laid out as one row `[1, k]` and then broadcast over `n` rows reads, at `(p, q)`, its entry `q`. -/
theorem rowBias_apply {α : Type} (b : (⟨1, ![k]⟩ : Shape).Idx → α)
    (h1 : (⟨1, ![k]⟩ : Shape).BroadcastsInDim ⟨2, ![1, k]⟩ ![1])
    (h2 : (⟨2, ![1, k]⟩ : Shape).BroadcastsInDim ⟨2, ![n, k]⟩ ![0, 1]) (p : Fin n) (q : Fin k) :
    broadcastInDim ⟨2, ![n, k]⟩ ![0, 1] h2 (broadcastInDim ⟨2, ![1, k]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if k = 1 then 0 else q.val
      split
      · have := q.isLt; omega
      · rfl)]
  exact broadcastInDim_apply ![1] h1 b (ix2 (0 : Fin 1) q) (ix1 q) (fun a => by
    match a with
    | ⟨0, _⟩ =>
      show q.val = if k = 1 then 0 else q.val
      split
      · have := q.isLt; omega
      · rfl)

/-- A scalar broadcast to a matrix reads the scalar at every entry. -/
theorem splat_apply {α : Type} (s : (⟨0, ![]⟩ : Shape).Idx → α)
    (h0 : (⟨0, ![]⟩ : Shape).BroadcastsInDim ⟨2, ![n, k]⟩ ![]) (i : (⟨2, ![n, k]⟩ : Shape).Idx) :
    broadcastInDim ⟨2, ![n, k]⟩ ![] h0 s i = s ix0 :=
  broadcastInDim_apply ![] h0 s i ix0 (fun a => a.elim0)

/-- The host's plain product of two matrices is `proj`. -/
theorem dotGeneral_eq_proj (D : DotDims ⟨2, ![n, k]⟩ ⟨2, ![k, m]⟩ ⟨2, ![n, m]⟩) (hD : D = DotDims.plain n k m)
    (x : FVec Ideal ⟨2, ![n, k]⟩ .f32) (w : FVec Ideal ⟨2, ![k, m]⟩ .f32) :
    Host.dotGeneral D none x w = proj x w := by
  funext i
  obtain ⟨p, j, rfl⟩ : ∃ (p : Fin n) (j : Fin m), i = ix2 p j := ⟨i 0, i 1, eq_ix2 i⟩
  exact Cert.PlainDot.dotGeneral_ix2 D hD none x w p j

/-- The host's hidden layer — the product of `max (x + bias, 0)` with `w`, the bias broadcast over the rows and the zero
    a splat — is `hidden`. -/
theorem dotGeneral_eq_hidden (D : DotDims ⟨2, ![n, k]⟩ ⟨2, ![k, m]⟩ ⟨2, ![n, m]⟩) (hD : D = DotDims.plain n k m)
    (x : FVec Ideal ⟨2, ![n, k]⟩ .f32) (b : FVec Ideal ⟨1, ![k]⟩ .f32) (w : FVec Ideal ⟨2, ![k, m]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h0 : (⟨0, ![]⟩ : Shape).BroadcastsInDim ⟨2, ![n, k]⟩ ![]) :
    Host.dotGeneral D none
        (maximumf (addf x (broadcastInDim ⟨2, ![n, k]⟩ ![0, 1] h2 (broadcastInDim ⟨2, ![1, k]⟩ ![1] h1 b)))
          (broadcastInDim ⟨2, ![n, k]⟩ ![] h0 (constant (F := Ideal) ⟨0, ![]⟩ .f32 0x00000000#32))) w
      = hidden x (fun q => b (ix1 q)) w := by
  funext i
  obtain ⟨p, j, rfl⟩ : ∃ (p : Fin n) (j : Fin m), i = ix2 p j := ⟨i 0, i 1, eq_ix2 i⟩
  refine (Cert.PlainDot.dotGeneral_ix2 D hD none _ w p j).trans ?_
  rw [hidden_ix2]
  refine Finset.sum_congr rfl fun q _ => ?_
  show max (x (ix2 p q) + broadcastInDim ⟨2, ![n, k]⟩ ![0, 1] h2 (broadcastInDim ⟨2, ![1, k]⟩ ![1] h1 b) (ix2 p q))
      (broadcastInDim ⟨2, ![n, k]⟩ ![] h0 (constant (F := Ideal) ⟨0, ![]⟩ .f32 0x00000000#32) (ix2 p q)) * w (ix2 q j) = _
  rw [rowBias_apply b h1 h2 p q, splat_apply _ h0 (ix2 p q)]
  rfl

/-- The host's last layer — the product of `x + bias` with `w`, plus a second bias broadcast over the rows — is `head`. -/
theorem dotGeneral_eq_head (D : DotDims ⟨2, ![n, k]⟩ ⟨2, ![k, m]⟩ ⟨2, ![n, m]⟩) (hD : D = DotDims.plain n k m)
    (x : FVec Ideal ⟨2, ![n, k]⟩ .f32) (b : FVec Ideal ⟨1, ![k]⟩ .f32) (w : FVec Ideal ⟨2, ![k, m]⟩ .f32)
    (bo : FVec Ideal ⟨1, ![m]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (g1 : (⟨1, ![m]⟩ : Shape).BroadcastsInDim ⟨2, ![1, m]⟩ ![1])
    (g2 : (⟨2, ![1, m]⟩ : Shape).BroadcastsInDim ⟨2, ![n, m]⟩ ![0, 1]) :
    addf (Host.dotGeneral D none
          (addf x (broadcastInDim ⟨2, ![n, k]⟩ ![0, 1] h2 (broadcastInDim ⟨2, ![1, k]⟩ ![1] h1 b))) w)
        (broadcastInDim ⟨2, ![n, m]⟩ ![0, 1] g2 (broadcastInDim ⟨2, ![1, m]⟩ ![1] g1 bo))
      = head x (fun q => b (ix1 q)) w (fun j => bo (ix1 j)) := by
  funext i
  obtain ⟨p, j, rfl⟩ : ∃ (p : Fin n) (j : Fin m), i = ix2 p j := ⟨i 0, i 1, eq_ix2 i⟩
  rw [head_ix2]
  show Host.dotGeneral D none _ w (ix2 p j)
      + broadcastInDim ⟨2, ![n, m]⟩ ![0, 1] g2 (broadcastInDim ⟨2, ![1, m]⟩ ![1] g1 bo) (ix2 p j) = _
  rw [rowBias_apply bo g1 g2 p j, Cert.PlainDot.dotGeneral_ix2 D hD none _ w p j]
  refine congrArg (· + bo (ix1 j)) (Finset.sum_congr rfl fun q _ => ?_)
  show (x (ix2 p q) + broadcastInDim ⟨2, ![n, k]⟩ ![0, 1] h2 (broadcastInDim ⟨2, ![1, k]⟩ ![1] h1 b) (ix2 p q)) * w (ix2 q j) = _
  rw [rowBias_apply b h1 h2 p q]

end Cert.Layers

end
-- ==== Proof.Payloads.lean ====
/-
  What each of the four kernel bodies stores, entry by entry, on the extended reals.

  Each body loads a block of 5000 rows `x`, the layer's weight matrix `w` and, past the first layer, a bias row, and stores
  one value: the product of the block (with the bias added to every row and, in the two hidden layers, the positive part
  taken) with the weights, accumulated from zero.  Both operands are rounded to bf16 before the product; on the extended
  reals that rounding is the identity, so entry `(p, j)` of the stored block is the sum over `q` of row `p` of the block
  against column `j` of the weights.  The last body adds a second bias, a `[1, 1]` row, to every entry.
-/
import proofs.«114022_j17540646437275_1_alg».proof.Proof.Gen.KernelIdeal.Skeleton
import proofs.«114022_j17540646437275_1_alg».proof.Proof.Layers
import Idealize.ShloMosaic.Lib.ValueLayout

noncomputable section

namespace Cert.KernelIdeal.Pay

open Cert.KernelIdeal Cert.KernelIdeal.Gen Idealize.ShloMosaic Idealize.ShloMosaic.ValueIdx Cert.Layers

/-- First layer: a block of rows times the weights. -/
theorem pay0_apply (x : FVec Ideal S5000x128 .f32) (w : FVec Ideal S128x128 .f32) (p : Fin 5000) (j : Fin 128) :
    k0_pay1 x w (ix2 p j) = ∑ q : Fin 128, x (ix2 p q) * w (ix2 q j) := by
  unfold k0_pay1
  exact Cert.PlainDot.matmul_zero_ix2 dot_S5000x128_S128x128_S5000x128_1_0_0_1_n_n rfl none _ _ p j

/-- Second layer: the bias row added to every row of the block, the positive part, then the weights. -/
theorem pay1_apply (x : FVec Ideal S5000x128 .f32) (b : FVec Ideal S1x128 .f32) (w : FVec Ideal S128x128 .f32)
    (p : Fin 5000) (j : Fin 128) :
    k1_pay1 x b w (ix2 p j) = ∑ q : Fin 128, max (x (ix2 p q) + b (ix2 (0 : Fin 1) q)) zero32 * w (ix2 q j) := by
  unfold k1_pay1
  refine (Cert.PlainDot.matmul_zero_ix2 dot_S5000x128_S128x128_S5000x128_1_0_0_1_n_n rfl none _ _ p j).trans ?_
  refine Finset.sum_congr rfl fun q _ => ?_
  show max (shapeCast S5000x128 x shapeCasts_S5000x128_S5000x128 (ix2 p q)
        + broadcastTo S5000x128 (shapeCast S1x128 b shapeCasts_S1x128_S1x128) broadcasts_S1x128_S5000x128 (ix2 p q))
      zero32 * w (ix2 q j) = _
  rw [shapeCast_self, shapeCast_self, broadcastTo_1b_ab_apply]

/-- Third layer: as the second, into 64 columns. -/
theorem pay2_apply (x : FVec Ideal S5000x128 .f32) (b : FVec Ideal S1x128 .f32) (w : FVec Ideal S128x64 .f32)
    (p : Fin 5000) (j : Fin 64) :
    k2_pay1 x b w (ix2 p j) = ∑ q : Fin 128, max (x (ix2 p q) + b (ix2 (0 : Fin 1) q)) zero32 * w (ix2 q j) := by
  unfold k2_pay1
  refine (Cert.PlainDot.matmul_zero_ix2 dot_S5000x128_S128x64_S5000x64_1_0_0_1_n_n rfl none _ _ p j).trans ?_
  refine Finset.sum_congr rfl fun q _ => ?_
  show max (shapeCast S5000x128 x shapeCasts_S5000x128_S5000x128 (ix2 p q)
        + broadcastTo S5000x128 (shapeCast S1x128 b shapeCasts_S1x128_S1x128) broadcasts_S1x128_S5000x128 (ix2 p q))
      zero32 * w (ix2 q j) = _
  rw [shapeCast_self, shapeCast_self, broadcastTo_1b_ab_apply]

/-- Last layer: the bias row added to every row of the block, the weights, then the `[1, 1]` bias added to every entry. -/
theorem pay3_apply (x : FVec Ideal S5000x64 .f32) (b : FVec Ideal S1x64 .f32) (w : FVec Ideal S64x1 .f32)
    (bo : FVec Ideal S1x1 .f32) (p : Fin 5000) (j : Fin 1) :
    k3_pay1 x b w bo (ix2 p j)
      = (∑ q : Fin 64, (x (ix2 p q) + b (ix2 (0 : Fin 1) q)) * w (ix2 q j)) + bo (ix2 (0 : Fin 1) j) := by
  unfold k3_pay1
  show matmul dot_S5000x64_S64x1_S5000x1_1_0_0_1_n_n none _ _ (constant (F := Ideal) S5000x1 .f32 0x00000000#32) (ix2 p j)
      + broadcastTo S5000x1 (shapeCast S1x1 bo shapeCasts_S1x1_S1x1) broadcasts_S1x1_S5000x1 (ix2 p j) = _
  simp only [shapeCast_self]
  rw [broadcastTo_1b_ab_apply, Cert.PlainDot.matmul_zero_ix2 dot_S5000x64_S64x1_S5000x1_1_0_0_1_n_n rfl none _ _ p j]
  refine congrArg (· + bo (ix2 (0 : Fin 1) j)) (Finset.sum_congr rfl fun q _ => ?_)
  show (x (ix2 p q) + broadcastTo S5000x64 b broadcasts_S1x64_S5000x64 (ix2 p q)) * w (ix2 q j) = _
  rw [broadcastTo_1b_ab_apply]

end Cert.KernelIdeal.Pay

end
-- ==== Proof.Region0.lean ====
/-
  The first layer's kernel, from blocks to the whole array.

  The kernel runs on a grid of 20 points.  Point `t` stages rows `5000·t … 5000·t + 4999` of the activations and the whole
  weight matrix, and writes back rows `5000·t …` of the result.  What it writes is the block's product with the weights,
  and row `p` of a product depends on row `p` of the left operand only: so the block written at `t` is block `t` of the
  product of the WHOLE activation array with the weights.  The twenty blocks tile the array, hence the array the
  kernel leaves is that product.  Everything is stated for arbitrary buffer contents `V` at the kernel's entry.
-/
import proofs.«114022_j17540646437275_1_alg».proof.Proof.Gen.KernelIdeal.Frame
import proofs.«114022_j17540646437275_1_alg».proof.Proof.Payloads
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL.Sem Cert.Layers
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The three index maps over the grid: the activations' block moves with the result's along the rows, the weights'
    block is the whole matrix, and the result's block index stays below 20. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block of rows is some point's. -/
theorem index_onto : ∀ r : Fin 20, ∃ t : Fin cfg0.N, win0_2.index t = ![r.val, 0] :=
  (by decide +kernel : ∀ r : Fin 20, ∃ t : Fin grid0.N, win0_2.index t = ![r.val, 0])

/-- What point `t` writes back is block `t` of the product of the whole arrays. -/
theorem flushed_eq (c : Dev nD) (t : Fin cfg0.N) :
    (dat0 V c).flushed 2 t
      = ((cfg0.win 2).blk t).view.read (Elt Ideal) (proj (n := 100000) (k := 128) (m := 128) (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := index_maps t
  funext y
  obtain ⟨p, j, rfl⟩ : ∃ (p : Fin 5000) (j : Fin 128), y = ix2 p j := ⟨y 0, y 1, eq_ix2 y⟩
  show k0_pay1 (iblk0 V c 0 t) (iblk0 V c 1 t) (ix2 p j)
      = proj (n := 100000) (k := 128) (m := 128) (V c main_arg0) (V c main_arg2) (((cfg0.win 2).blk t).view.emb (ix2 p j))
  refine (Cert.KernelIdeal.Pay.pay0_apply (iblk0 V c 0 t) (iblk0 V c 1 t) p j).trans ?_
  unfold proj
  refine Finset.sum_congr rfl fun q _ => ?_
  have hx : ((cfg0.win 0).blk t).view.emb (ix2 p q) = ix2 ((((cfg0.win 2).blk t).view.emb (ix2 p j)) 0) q := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * q.val = q.val; omega
  have hw : ((cfg0.win 1).blk t).view.emb (ix2 q j) = ix2 q ((((cfg0.win 2).blk t).view.emb (ix2 p j)) 1) := by
    funext a; apply Fin.ext
    match a with
    | ⟨0, _⟩ => show win0_1.index t (0 : Fin 2) * 128 + 1 * q.val = q.val; omega
    | ⟨1, _⟩ => show win0_1.index t (1 : Fin 2) * 128 + 1 * j.val = win0_2.index t (1 : Fin 2) * 128 + 1 * j.val; omega
  exact congrArg₂ (fun a b : EReal => a * b) (congrArg (V c main_arg0 : Mat 100000 128) hx) (congrArg (V c main_arg2 : Mat 128 128) hw)

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The blocks tile the array: row `r` is in the block of point `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY the first kernel leaves: the product of the activations with the weights, as it found them. -/
theorem final (c : Dev nD) :
    (dat0 V c).arrAt 2 cfg0.N = proj (n := 100000) (k := 128) (m := 128) (V c main_arg0) (V c main_arg2) :=
  (dat0 V c).arrAt_eq_of_cover 2 _ (fun t _ => flushed_eq V c t) covered

end Cert.KernelIdeal.Reg0

end
-- ==== Proof.Region1.lean ====
/-
  The second layer's kernel, from blocks to the whole array.

  As in the first layer, grid point `t` of 20 stages rows `5000·t … 5000·t + 4999` of the activations, and it stages the
  whole bias row and the whole weight matrix at every point.  It writes back the block's rows with the bias added, the
  positive part taken and the product with the weights formed; row `p` of that depends on row `p` of the activations only,
  so the block written at `t` is block `t` of the hidden layer applied to the WHOLE activation array.  The twenty blocks tile
  the result, hence the array the kernel leaves is the hidden layer of the arrays it found.  Stated for arbitrary buffer
  contents `V` at the kernel's entry.
-/
import proofs.«114022_j17540646437275_1_alg».proof.Proof.Gen.KernelIdeal.Frame
import proofs.«114022_j17540646437275_1_alg».proof.Proof.Payloads
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.SL.Sem Cert.Layers
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the activations' block moves with the result's along the rows; the bias row's and the
    weights' blocks are the whole arrays; the result's block index stays below 20. -/
theorem index_maps : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Every block of rows is some point's. -/
theorem index_onto : ∀ r : Fin 20, ∃ t : Fin cfg1.N, win1_3.index t = ![r.val, 0] :=
  (by decide +kernel : ∀ r : Fin 20, ∃ t : Fin grid1.N, win1_3.index t = ![r.val, 0])

/-- What point `t` writes back is block `t` of the hidden layer of the whole arrays. -/
theorem flushed_eq (c : Dev nD) (t : Fin cfg1.N) :
    (dat1 V c).flushed 3 t
      = ((cfg1.win 3).blk t).view.read (Elt Ideal)
          (Layers.hidden (n := 100000) (k := 128) (m := 128) (V c main_v43) (fun q => (V c main_v44 : Mat 1 128) (ix2 (0 : Fin 1) q)) (V c main_arg4)) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin, View.ld_unit_zero (S := S128x128) origin]
  obtain ⟨e0, e1, e2, e3, e4, e5, e6, e7⟩ := index_maps t
  funext y
  obtain ⟨p, j, rfl⟩ : ∃ (p : Fin 5000) (j : Fin 128), y = ix2 p j := ⟨y 0, y 1, eq_ix2 y⟩
  show k1_pay1 (iblk1 V c 0 t) (iblk1 V c 1 t) (iblk1 V c 2 t) (ix2 p j)
      = Layers.hidden (n := 100000) (k := 128) (m := 128) (V c main_v43) (fun q => (V c main_v44 : Mat 1 128) (ix2 (0 : Fin 1) q)) (V c main_arg4)
          (((cfg1.win 3).blk t).view.emb (ix2 p j))
  refine (Cert.KernelIdeal.Pay.pay1_apply (iblk1 V c 0 t) (iblk1 V c 1 t) (iblk1 V c 2 t) p j).trans ?_
  unfold Layers.hidden
  refine Finset.sum_congr rfl fun q _ => ?_
  have hx : ((cfg1.win 0).blk t).view.emb (ix2 p q) = ix2 ((((cfg1.win 3).blk t).view.emb (ix2 p j)) 0) q := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = q.val; omega
  have hb : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have hw : ((cfg1.win 2).blk t).view.emb (ix2 q j) = ix2 q ((((cfg1.win 3).blk t).view.emb (ix2 p j)) 1) := by
    funext a; apply Fin.ext
    match a with
    | ⟨0, _⟩ => show win1_2.index t (0 : Fin 2) * 128 + 1 * q.val = q.val; omega
    | ⟨1, _⟩ => show win1_2.index t (1 : Fin 2) * 128 + 1 * j.val = win1_3.index t (1 : Fin 2) * 128 + 1 * j.val; omega
  exact congrArg₂ (fun a b : EReal => a * b)
    (congrArg₂ (fun a b : EReal => max (a + b) zero32) (congrArg (V c main_v43 : Mat 100000 128) hx) (congrArg (V c main_v44 : Mat 1 128) hb))
    (congrArg (V c main_arg4 : Mat 128 128) hw)

/-- An index of the result array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v45).slice (win1_3.rect t)).set ↔ _
  rw [View.set_slice_whole, Rect.mem_set_unit]
  exact Iff.rfl

/-- The blocks tile the array: row `r` is in the block of point `r / 5000`. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE ARRAY the kernel leaves: the hidden layer of the activations, the bias row and the weights as it found them. -/
theorem final (c : Dev nD) :
    (dat1 V c).arrAt 3 cfg1.N
      = Layers.hidden (n := 100000) (k := 128) (m := 128) (V c main_v43) (fun q => (V c main_v44 : Mat 1 128) (ix2 (0 : Fin 1) q)) (V c main_arg4) :=
  (dat1 V c).arrAt_eq_of_cover 3 _ (fun t _ => flushed_eq V c t) covered

end Cert.KernelIdeal.Reg1

end
-- ==== Proof.Region2.lean ====
/-
  The third layer's kernel, from blocks to the whole array.

  As in the first layer, grid point `t` of 20 stages rows `5000·t … 5000·t + 4999` of the activations, and it stages the
  whole bias row and the whole weight matrix at every point.  It writes back the block's rows with the bias added, the
  positive part taken and the product with the weights formed; row `p` of that depends on row `p` of the activations only,
  so the block written at `t` is block `t` of the hidden layer applied to the WHOLE activation array.  The twenty blocks tile
  the result, hence the array the kernel leaves is the hidden layer of the arrays it found.  Stated for arbitrary buffer
  contents `V` at the kernel's entry.
-/
import proofs.«114022_j17540646437275_1_alg».proof.Proof.Gen.KernelIdeal.Frame
import proofs.«114022_j17540646437275_1_alg».proof.Proof.Payloads
import Idealize.ShloMosaic.Lib.Pipeline.Value

set_option maxRecDepth 16384

noncomputable section

namespace Cert.KernelIdeal.Reg2

open Cert.KernelIdeal Cert.KernelIdeal.Gen Idealize.ShloMosaic Idealize.ShloMosaic.TcCoe Idealize.ShloMosaic.ValueIdx
open Idealize.SL.Sem Cert.Layers
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the activations' block moves with the result's along the rows; the bias row's and the
    weights' blocks are the whole arrays; the result's block index stays below 20. -/
theorem index_maps : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 19 :=
  (by decide +kernel : ∀ t : Fin grid2.N, _)

/-- Every block of rows is some point's. -/
theorem index_onto : ∀ r : Fin 20, ∃ t : Fin cfg2.N, win2_3.index t = ![r.val, 0] :=
  (by decide +kernel : ∀ r : Fin 20, ∃ t : Fin grid2.N, win2_3.index t = ![r.val, 0])

/-- What point `t` writes back is block `t` of the hidden layer of the whole arrays. -/
theorem flushed_eq (c : Dev nD) (t : Fin cfg2.N) :
    (dat2 V c).flushed 3 t
      = ((cfg2.win 3).blk t).view.read (Elt Ideal)
          (Layers.hidden (n := 100000) (k := 128) (m := 64) (V c main_v58) (fun q => (V c main_v59 : Mat 1 128) (ix2 (0 : Fin 1) q)) (V c main_arg6)) := by
  show (cfg2.win 3).cut (grid2.coords t) ((dat2 V c).after 3 t) = _
  rw [after2_3]
  unfold out2_3
  rw [View.canon_unit_zero origin]
  simp only [View.ld_unit_zero (S := S5000x128) origin, View.ld_unit_zero (S := S1x128) origin, View.ld_unit_zero (S := S128x64) origin]
  obtain ⟨e0, e1, e2, e3, e4, e5, e6, e7⟩ := index_maps t
  funext y
  obtain ⟨p, j, rfl⟩ : ∃ (p : Fin 5000) (j : Fin 64), y = ix2 p j := ⟨y 0, y 1, eq_ix2 y⟩
  show k2_pay1 (iblk2 V c 0 t) (iblk2 V c 1 t) (iblk2 V c 2 t) (ix2 p j)
      = Layers.hidden (n := 100000) (k := 128) (m := 64) (V c main_v58) (fun q => (V c main_v59 : Mat 1 128) (ix2 (0 : Fin 1) q)) (V c main_arg6)
          (((cfg2.win 3).blk t).view.emb (ix2 p j))
  refine (Cert.KernelIdeal.Pay.pay2_apply (iblk2 V c 0 t) (iblk2 V c 1 t) (iblk2 V c 2 t) p j).trans ?_
  unfold Layers.hidden
  refine Finset.sum_congr rfl fun q _ => ?_
  have hx : ((cfg2.win 0).blk t).view.emb (ix2 p q) = ix2 ((((cfg2.win 3).blk t).view.emb (ix2 p j)) 0) q := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = q.val; omega
  have hb : ((cfg2.win 1).blk t).view.emb (ix2 (0 : Fin 1) q) = ix2 (0 : Fin 1) q := by
    funext a; apply Fin.ext
    match a with
    | ⟨0, _⟩ => show win2_1.index t (0 : Fin 2) * 1 + 1 * 0 = 0; omega
    | ⟨1, _⟩ => show win2_1.index t (1 : Fin 2) * 128 + 1 * q.val = q.val; omega
  have hw : ((cfg2.win 2).blk t).view.emb (ix2 q j) = ix2 q ((((cfg2.win 3).blk t).view.emb (ix2 p j)) 1) := by
    funext a; apply Fin.ext
    match a with
    | ⟨0, _⟩ => show win2_2.index t (0 : Fin 2) * 128 + 1 * q.val = q.val; omega
    | ⟨1, _⟩ => show win2_2.index t (1 : Fin 2) * 64 + 1 * j.val = win2_3.index t (1 : Fin 2) * 64 + 1 * j.val; omega
  exact congrArg₂ (fun a b : EReal => a * b)
    (congrArg₂ (fun a b : EReal => max (a + b) zero32) (congrArg (V c main_v58 : Mat 100000 128) hx) (congrArg (V c main_v59 : Mat 1 128) hb))
    (congrArg (V c main_arg6 : Mat 128 64) hw)

/-- An index of the result array is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v60).slice (win2_3.rect t)).set ↔ _
  rw [View.set_slice_whole, Rect.mem_set_unit]
  exact Iff.rfl

/-- The blocks tile the array: row `r` is in the block of point `r / 5000`. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := index_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- THE ARRAY the kernel leaves: the hidden layer of the activations, the bias row and the weights as it found them. -/
theorem final (c : Dev nD) :
    (dat2 V c).arrAt 3 cfg2.N
      = Layers.hidden (n := 100000) (k := 128) (m := 64) (V c main_v58) (fun q => (V c main_v59 : Mat 1 128) (ix2 (0 : Fin 1) q)) (V c main_arg6) :=
  (dat2 V c).arrAt_eq_of_cover 3 _ (fun t _ => flushed_eq V c t) covered

end Cert.KernelIdeal.Reg2

end
-- ==== Proof.Region3.lean ====
/-
  The last layer's kernel, from blocks to the whole array.

  Grid point `t` of 20 stages rows `5000·t … 5000·t + 4999` of the 64-feature activations and, whole, the bias row, the
  64-by-1 weights and the `[1, 1]` second bias; it writes back the block's rows with the first bias added, multiplied by
  the weights, plus the second bias.  Row `p` of that depends on row `p` of the activations only, so the block written
  at `t` is block `t` of the head applied to the WHOLE activation array, and the twenty blocks tile the one-column result.
  Stated for arbitrary buffer contents `V` at the kernel's entry.
-/
import proofs.«114022_j17540646437275_1_alg».proof.Proof.Gen.KernelIdeal.Frame
import proofs.«114022_j17540646437275_1_alg».proof.Proof.Payloads
import Idealize.ShloMosaic.Lib.Pipeline.Value

set_option maxRecDepth 16384

noncomputable section

namespace Cert.KernelIdeal.Reg3

open Cert.KernelIdeal Cert.KernelIdeal.Gen Idealize.ShloMosaic Idealize.ShloMosaic.TcCoe Idealize.ShloMosaic.ValueIdx
open Idealize.SL.Sem Cert.Layers
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the activations' block moves with the result's along the rows; the two bias rows' and
    the weights' blocks are the whole arrays; the result's block index stays below 20. -/
theorem index_maps : ∀ t : Fin cfg3.N, win3_0.index t (0 : Fin 2) = win3_4.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) ≤ 19 :=
  (by decide +kernel : ∀ t : Fin grid3.N, _)

/-- Every block of rows is some point's. -/
theorem index_onto : ∀ r : Fin 20, ∃ t : Fin cfg3.N, win3_4.index t = ![r.val, 0] :=
  (by decide +kernel : ∀ r : Fin 20, ∃ t : Fin grid3.N, win3_4.index t = ![r.val, 0])

/-- What point `t` writes back is block `t` of the head of the whole arrays. -/
theorem flushed_eq (c : Dev nD) (t : Fin cfg3.N) :
    (dat3 V c).flushed 4 t
      = ((cfg3.win 4).blk t).view.read (Elt Ideal)
          (Layers.head (n := 100000) (k := 64) (m := 1) (V c main_v73) (fun q => (V c main_v74 : Mat 1 64) (ix2 (0 : Fin 1) q)) (V c main_arg8)
            (fun j => (V c main_v75 : Mat 1 1) (ix2 (0 : Fin 1) j))) := by
  show (cfg3.win 4).cut (grid3.coords t) ((dat3 V c).after 4 t) = _
  rw [after3_4]
  unfold out3_4
  rw [View.canon_unit_zero origin]
  simp only [View.ld_unit_zero (S := S5000x64) origin, View.ld_unit_zero (S := S1x64) origin, View.ld_unit_zero (S := S64x1) origin,
    View.ld_unit_zero (S := S1x1) origin]
  obtain ⟨e0, e1, e2, e3, e4, e5, e6, e7, e8, e9⟩ := index_maps t
  funext y
  obtain ⟨p, j, rfl⟩ : ∃ (p : Fin 5000) (j : Fin 1), y = ix2 p j := ⟨y 0, y 1, eq_ix2 y⟩
  show k3_pay1 (iblk3 V c 0 t) (iblk3 V c 1 t) (iblk3 V c 2 t) (iblk3 V c 3 t) (ix2 p j)
      = Layers.head (n := 100000) (k := 64) (m := 1) (V c main_v73) (fun q => (V c main_v74 : Mat 1 64) (ix2 (0 : Fin 1) q)) (V c main_arg8)
          (fun j => (V c main_v75 : Mat 1 1) (ix2 (0 : Fin 1) j)) (((cfg3.win 4).blk t).view.emb (ix2 p j))
  refine (Cert.KernelIdeal.Pay.pay3_apply (iblk3 V c 0 t) (iblk3 V c 1 t) (iblk3 V c 2 t) (iblk3 V c 3 t) p j).trans ?_
  unfold Layers.head
  have hbo : ((cfg3.win 3).blk t).view.emb (ix2 (0 : Fin 1) j) = ix2 (0 : Fin 1) ((((cfg3.win 4).blk t).view.emb (ix2 p j)) 1) := by
    funext a; apply Fin.ext
    match a with
    | ⟨0, _⟩ => show win3_3.index t (0 : Fin 2) * 1 + 1 * 0 = 0; omega
    | ⟨1, _⟩ => show win3_3.index t (1 : Fin 2) * 1 + 1 * j.val = win3_4.index t (1 : Fin 2) * 1 + 1 * j.val; omega
  refine congrArg₂ (fun a b : EReal => a + b) (Finset.sum_congr rfl fun q _ => ?_) (congrArg (V c main_v75 : Mat 1 1) hbo)
  have hx : ((cfg3.win 0).blk t).view.emb (ix2 p q) = ix2 ((((cfg3.win 4).blk t).view.emb (ix2 p j)) 0) q := by
    funext a; apply Fin.ext
    match a with
    | ⟨0, _⟩ => show win3_0.index t (0 : Fin 2) * 5000 + 1 * p.val = win3_4.index t (0 : Fin 2) * 5000 + 1 * p.val; omega
    | ⟨1, _⟩ => show win3_0.index t (1 : Fin 2) * 64 + 1 * q.val = q.val; omega
  have hb : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  have hw : ((cfg3.win 2).blk t).view.emb (ix2 q j) = ix2 q ((((cfg3.win 4).blk t).view.emb (ix2 p j)) 1) := by
    funext a; apply Fin.ext
    match a with
    | ⟨0, _⟩ => show win3_2.index t (0 : Fin 2) * 64 + 1 * q.val = q.val; omega
    | ⟨1, _⟩ => show win3_2.index t (1 : Fin 2) * 1 + 1 * j.val = win3_4.index t (1 : Fin 2) * 1 + 1 * j.val; omega
  exact congrArg₂ (fun a b : EReal => a * b)
    (congrArg₂ (fun a b : EReal => a + b) (congrArg (V c main_v73 : Mat 100000 64) hx) (congrArg (V c main_v74 : Mat 1 64) hb))
    (congrArg (V c main_arg8 : Mat 64 1) hw)

/-- An index of the result array is in point `t`'s block iff each coordinate is in the block's range on its axis. -/
theorem mem_blk (t : Fin cfg3.N) (i : S100000x1.Idx) :
    i ∈ ((cfg3.win 4).blk t).view.set ↔ ∀ a : Fin 2, win3_4.index t a * S5000x1.size a ≤ (i a).val
      ∧ (i a).val < win3_4.index t a * S5000x1.size a + S5000x1.size a := by
  show i ∈ ((View.whole main_v76).slice (win3_4.rect t)).set ↔ _
  rw [View.set_slice_whole, Rect.mem_set_unit]
  exact Iff.rfl

/-- The blocks tile the array: row `r` is in the block of point `r / 5000`. -/
theorem covered (i : S100000x1.Idx) :
    ∃ t : Fin cfg3.N, (cfg3.win 4).flush t = true ∧ i ∈ ((cfg3.win 4).blk t).view.set := by
  have hi0 : (i 0).val < 100000 := (i 0).isLt
  have hi1 : (i 1).val < 1 := (i 1).isLt
  obtain ⟨t, ht⟩ := index_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 1 ≤ (i 1).val ∧ (i 1).val < win3_4.index t (1 : Fin 2) * 1 + 1; omega

/-- THE ARRAY the last kernel leaves: the head of the activations, the two biases and the weights as it found them. -/
theorem final (c : Dev nD) :
    (dat3 V c).arrAt 4 cfg3.N
      = Layers.head (n := 100000) (k := 64) (m := 1) (V c main_v73) (fun q => (V c main_v74 : Mat 1 64) (ix2 (0 : Fin 1) q)) (V c main_arg8)
          (fun j => (V c main_v75 : Mat 1 1) (ix2 (0 : Fin 1) j)) :=
  (dat3 V c).arrAt_eq_of_cover 4 _ (fun t _ => flushed_eq V c t) covered

end Cert.KernelIdeal.Reg3

end
-- ==== Proof.Stretch.lean ====
/-
  The host side of the network, shared word for word by the two programs, as functions that are never opened.

  From the edge list both programs build the same things with the same operations: the source and the destination
  of every edge with one self loop per node appended, each node's degree (a scatter-add of ones), its inverse square
  root where the degree is positive, and an edge's weight, the product of the two ends' inverse roots.  A layer's
  aggregation gathers the rows of a node-feature matrix at the edges' sources (negative indices wrapped), scales each by
  the edge's weight, and scatter-adds them into the rows of the destinations.  None of this is looked into: the two
  programs apply the same function to what they computed before, so it is enough that those inputs agree.

  `net` is the whole network: three aggregations around the four dense layers of `Cert.Layers`.
-/
import proofs.«114022_j17540646437275_1_alg».proof.Proof.Gen.ReferenceIdeal
import proofs.«114022_j17540646437275_1_alg».proof.Proof.Layers

noncomputable section

namespace Cert.Stretch

open Cert.ReferenceIdeal Cert.ReferenceIdeal.Gen Idealize.ShloMosaic Idealize.ShloMosaic.TcCoe Idealize.ShloMosaic.ValueIdx
open Cert.Layers

/-- An integer array of shape `s`. -/
abbrev IArr (s : Shape) : Type := IVec s 32
/-- A float array of shape `s`, on the extended reals. -/
abbrev FArr (s : Shape) : Type := FVec Ideal s .f32

/-- The edges' sources, then every node once (the self loops). -/
def srcOf (e : IArr S2x1600000) : IArr S1700000 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' destinations, then every node once. -/
def dstOf (e : IArr S2x1600000) : IArr S1700000 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- An index vector as a column. -/
def col (v : IArr S1700000) : IArr S1700000x1 := broadcastInDim S1700000x1 ![0] bcast_S1700000_S1700000x1_0 v

/-- An index vector with its negative entries wrapped by the node count, as a column. -/
def wrapCol (v : IArr S1700000) : IArr S1700000x1 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- Every node's degree: ones scatter-added at the destinations. -/
def degOf (dst : IArr S1700000) : FArr S100000 :=
  Host.scatterAdd scatter_S100000_S1700000x1_S1700000_n_0_0_1 (broadcastInDim S100000 ![] bcast_S_S100000 (constant (F := Ideal) S_ .f32 0x00000000#32)) (col dst) (broadcastInDim S1700000 ![] bcast_S_S1700000 (constant (F := Ideal) S_ .f32 0x3F800000#32))

/-- The inverse square root of the degree where it is positive, zero elsewhere. -/
def dinvOf (dst : IArr S1700000) : FArr S100000 :=
  select (cmpf .ogt (degOf dst) (broadcastInDim S100000 ![] bcast_S_S100000 (constant (F := Ideal) S_ .f32 0x00000000#32))) (Host.rsqrt (degOf dst)) (broadcastInDim S100000 ![] bcast_S_S100000 (id (constant (F := Ideal) S_ .f32 0x00000000#32)))

/-- An edge's weight: the product of its two ends' inverse roots. -/
def nrmOf (src dst : IArr S1700000) : FArr S1700000 :=
  mulf (Host.gather gather_S100000_S1700000x1_S1700000_n_0_n_n_0_1_1 (dinvOf dst) (wrapCol src)) (Host.gather gather_S100000_S1700000x1_S1700000_n_0_n_n_0_1_1 (dinvOf dst) (wrapCol dst))

/-- One aggregation over 128 features: rows gathered at the sources, scaled by the weights, summed at the destinations. -/
def agg128 (src dst : IArr S1700000) (nrm : FArr S1700000) (t : FArr S100000x128) : FArr S100000x128 :=
  Host.scatterAdd scatter_S100000x128_S1700000x1_S1700000x128_1_0_0_1 (broadcastInDim S100000x128 ![] bcast_S_S100000x128 (constant (F := Ideal) S_ .f32 0x00000000#32)) (col dst) (mulf (Host.gather gather_S100000x128_S1700000x1_S1700000x128_1_0_n_n_0_1_1128 t (wrapCol src)) (broadcastInDim S1700000x128 ![0, 1] bcast_S1700000x1_S1700000x128_0_1 (broadcastInDim S1700000x1 ![0] bcast_S1700000_S1700000x1_0 nrm)))

/-- The same aggregation over 64 features. -/
def agg64 (src dst : IArr S1700000) (nrm : FArr S1700000) (t : FArr S100000x64) : FArr S100000x64 :=
  Host.scatterAdd scatter_S100000x64_S1700000x1_S1700000x64_1_0_0_1 (broadcastInDim S100000x64 ![] bcast_S_S100000x64 (constant (F := Ideal) S_ .f32 0x00000000#32)) (col dst) (mulf (Host.gather gather_S100000x64_S1700000x1_S1700000x64_1_0_n_n_0_1_164 t (wrapCol src)) (broadcastInDim S1700000x64 ![0, 1] bcast_S1700000x1_S1700000x64_0_1 (broadcastInDim S1700000x1 ![0] bcast_S1700000_S1700000x1_0 nrm)))

/-- THE NETWORK: project, aggregate; twice (bias, positive part, project, aggregate); then the biased head. -/
def net (x : FArr S100000x128) (e : IArr S2x1600000) (w1 : FArr S128x128) (b1 : FArr S128) (wh : FArr S128x128) (bh : FArr S128)
    (w2 : FArr S128x64) (b2 : FArr S64) (wo : FArr S64x1) (bo : FArr S1) : FArr S100000x1 :=
  head (n := 100000) (k := 64) (m := 1)
    (agg64 (srcOf e) (dstOf e) (nrmOf (srcOf e) (dstOf e))
      (hidden (n := 100000) (k := 128) (m := 64)
        (agg128 (srcOf e) (dstOf e) (nrmOf (srcOf e) (dstOf e))
          (hidden (n := 100000) (k := 128) (m := 128)
            (agg128 (srcOf e) (dstOf e) (nrmOf (srcOf e) (dstOf e)) (proj (n := 100000) (k := 128) (m := 128) x w1))
            (fun q => b1 (ix1 q)) wh))
        (fun q => bh (ix1 q)) w2))
    (fun q => b2 (ix1 q)) wo (fun j => bo (ix1 j))

end Cert.Stretch

end
-- ==== Proof.KernelChain.lean ====
/-
  The kernel program's result as a function of its arguments.

  The program's buffer contents at its boundaries are a fold from the launch memory: a stretch of host operations
  applies its operations; a kernel replaces its arrays by what its write-backs leave and touches nothing else.  Read
  along that fold:
    * the stretches before the first kernel compute, from the edge list, the sources, the destinations and the edge
      weights, and no later stretch or kernel writes those three buffers or any argument;
    * each kernel leaves the dense layer of the arrays it found (`Reg0 … Reg3`);
    * the stretch before each later kernel aggregates the previous kernel's result over the edges and lays the next
      bias vector out as a row.
  Hence the result buffer ends at the network `net` of the arguments as launched.
-/
import proofs.«114022_j17540646437275_1_alg».proof.Proof.Gen.KernelIdeal.Frame
import proofs.«114022_j17540646437275_1_alg».proof.Proof.Region0
import proofs.«114022_j17540646437275_1_alg».proof.Proof.Region1
import proofs.«114022_j17540646437275_1_alg».proof.Proof.Region2
import proofs.«114022_j17540646437275_1_alg».proof.Proof.Region3
import proofs.«114022_j17540646437275_1_alg».proof.Proof.Stretch
import Idealize.ShloMosaic.Lib.ValueLayout
import Idealize.ShloMosaic.Lib.StableHlo.Run

set_option quotPrecheck false
set_option maxRecDepth 16384

noncomputable section

namespace Cert.KernelIdeal.Chain

open Cert.KernelIdeal Cert.KernelIdeal.Gen Idealize.ShloMosaic Idealize.ShloMosaic.TcCoe Idealize.ShloMosaic.ValueIdx
open Idealize.ShloMosaic.StableHlo Idealize.SL.Sem Cert.Layers Cert.Stretch

/-! ## The host stretches, from any contents `S` -/

section Stretches

variable (S : Valuation τ sig (Elt Ideal))

/-- The buffers that, once the first kernel is entered, nothing writes: the sources, the destinations, the edge
    weights, and the arguments read later. -/
def kept : List (Ref sig .tc) :=
  [main_v3, main_v6, main_v29, main_arg3, main_arg4, main_arg5, main_arg6, main_arg7, main_arg8, main_arg9]

/-- The arguments the program reads, other than the edge list. -/
def floats : List (Ref sig .tc) :=
  [main_arg0, main_arg2, main_arg3, main_arg4, main_arg5, main_arg6, main_arg7, main_arg8, main_arg9]

/-- A line of operations run in two parts. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-- The first stretch in two: the edges' two ends (its first 7 operations), then the degrees. -/
abbrev ends : List (HloOp τ sig (Elt Ideal)) := (hostOps0 (F := Ideal)).take 7
abbrev degrees : List (HloOp τ sig (Elt Ideal)) := (hostOps0 (F := Ideal)).drop 7

theorem hostOps0_eq : (hostOps0 (F := Ideal)) = ends ++ degrees := by
  rfl

/-- The stretches before the first kernel after the edges' ends: the degrees, the inverse roots, the edge weights. -/
abbrev weights : Valuation τ sig (Elt Ideal) :=
  StableHlo.after hostOps0_2 (StableHlo.after hostOps0_1 (StableHlo.after degrees S))

/-- The three stretches before the first kernel, as one fold. -/
abbrev entry0 : Valuation τ sig (Elt Ideal) :=
  StableHlo.after hostOps0_2 (StableHlo.after hostOps0_1 (StableHlo.after hostOps0 S))

theorem entry0_eq : entry0 S = weights (StableHlo.after ends S) := by
  show StableHlo.after hostOps0_2 (StableHlo.after hostOps0_1 (StableHlo.after hostOps0 S)) = _
  rw [hostOps0_eq, after_append]

theorem ends_src : StableHlo.after ends S (Proc.devRef .tc main_v3) = srcOf (S (Proc.devRef .tc main_arg1)) := by
  simp only [ends, hostOps0, List.take]
  after_results
  rfl

theorem ends_dst : StableHlo.after ends S (Proc.devRef .tc main_v6) = dstOf (S (Proc.devRef .tc main_arg1)) := by
  simp only [ends, hostOps0, List.take]
  after_results
  rfl

theorem weights_src : weights S (Proc.devRef .tc main_v3) = S (Proc.devRef .tc main_v3) := by
  simp only [weights, degrees, hostOps0, List.drop]
  after_results_simp

theorem weights_dst : weights S (Proc.devRef .tc main_v6) = S (Proc.devRef .tc main_v6) := by
  simp only [weights, degrees, hostOps0, List.drop]
  after_results_simp

/-- The inverse roots as the program spells them — the mask, the root and the zero splat each read through its typed
    buffer — are the plain selection: those readings are the identity. -/
theorem dinv_plain (D : FVec Ideal S100000 .f32) :
    (TRef.of (sig := sig) (T := ⟨S100000, .f32⟩) main_v14).toBuf (Val := Elt Ideal)
      (select ((TRef.of (sig := sig) (T := ⟨S100000, .i1⟩) main_v12).ofBuf (Val := Elt Ideal)
          (cmpf .ogt D (broadcastInDim S100000 ![] bcast_S_S100000 (constant (F := Ideal) S_ .f32 0x00000000#32))))
        ((TRef.of (sig := sig) (T := ⟨S100000, .f32⟩) main_v13).ofBuf (Val := Elt Ideal) (Host.rsqrt D))
        ((TRef.of (sig := sig) (T := ⟨S100000, .f32⟩) main_call0_v1).ofBuf (Val := Elt Ideal)
          ((TRef.of (sig := sig) (T := ⟨S100000, .f32⟩) main_call0_v1).toBuf (Val := Elt Ideal)
            (broadcastInDim S100000 ![] bcast_S_S100000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_2).ofBuf (Val := Elt Ideal)
                    (constant (F := Ideal) S_ .f32 0x00000000#32)))))))))
    = select (cmpf .ogt D (broadcastInDim S100000 ![] bcast_S_S100000 (constant (F := Ideal) S_ .f32 0x00000000#32))) (Host.rsqrt D)
        (broadcastInDim S100000 ![] bcast_S_S100000 (id (constant (F := Ideal) S_ .f32 0x00000000#32))) := by
  rfl

/-- The edge weights, from the two ends. -/
theorem weights_nrm : weights S (Proc.devRef .tc main_v29)
    = nrmOf (S (Proc.devRef .tc main_v3)) (S (Proc.devRef .tc main_v6)) := by
  simp only [weights, degrees, hostOps0, List.drop]
  after_results_simp
  rw [dinv_plain]
  rfl

theorem pre_src : entry0 S (Proc.devRef .tc main_v3) = srcOf (S (Proc.devRef .tc main_arg1)) := by
  rw [entry0_eq]
  exact (weights_src (StableHlo.after ends S)).trans (ends_src S)

theorem pre_dst : entry0 S (Proc.devRef .tc main_v6) = dstOf (S (Proc.devRef .tc main_arg1)) := by
  rw [entry0_eq]
  exact (weights_dst (StableHlo.after ends S)).trans (ends_dst S)

theorem pre_nrm : entry0 S (Proc.devRef .tc main_v29)
    = nrmOf (srcOf (S (Proc.devRef .tc main_arg1))) (dstOf (S (Proc.devRef .tc main_arg1))) := by
  rw [entry0_eq]
  refine (weights_nrm (StableHlo.after ends S)).trans ?_
  rw [ends_src, ends_dst]

theorem pre_floats : ∀ b ∈ floats, entry0 S (Proc.devRef .tc b) = S (Proc.devRef .tc b) := by
  intro b hb
  simp only [floats, List.mem_cons, List.mem_nil_iff, or_false] at hb
  rcases hb with rfl | rfl | rfl | rfl | rfl | rfl | rfl | rfl | rfl
  all_goals (dsimp only [entry0]; after_results_simp)

/-- Before the second kernel: the first kernel's result aggregated over the edges. -/
theorem s1_agg : StableHlo.after hostOps1 S (Proc.devRef .tc main_v43)
    = agg128 (S (Proc.devRef .tc main_v3)) (S (Proc.devRef .tc main_v6)) (S (Proc.devRef .tc main_v29)) (S (Proc.devRef .tc main_v30)) := by
  after_results_simp
  rfl

/-- … and the first bias vector laid out as a row. -/
theorem s1_bias : StableHlo.after hostOps1 S (Proc.devRef .tc main_v44)
    = shapeCast S1x128 (S (Proc.devRef .tc main_arg3)) shapeCasts_S128_S1x128 := by
  after_results_simp
  rfl

theorem s1_kept : ∀ b ∈ kept, StableHlo.after hostOps1 S (Proc.devRef .tc b) = S (Proc.devRef .tc b) := by
  intro b hb
  simp only [kept, List.mem_cons, List.mem_nil_iff, or_false] at hb
  rcases hb with rfl | rfl | rfl | rfl | rfl | rfl | rfl | rfl | rfl | rfl
  all_goals after_results_simp

/-- Before the third kernel: the second kernel's result aggregated. -/
theorem s2_agg : StableHlo.after hostOps2 S (Proc.devRef .tc main_v58)
    = agg128 (S (Proc.devRef .tc main_v3)) (S (Proc.devRef .tc main_v6)) (S (Proc.devRef .tc main_v29)) (S (Proc.devRef .tc main_v45)) := by
  after_results_simp
  rfl

theorem s2_bias : StableHlo.after hostOps2 S (Proc.devRef .tc main_v59)
    = shapeCast S1x128 (S (Proc.devRef .tc main_arg5)) shapeCasts_S128_S1x128 := by
  after_results_simp
  rfl

theorem s2_kept : ∀ b ∈ kept, StableHlo.after hostOps2 S (Proc.devRef .tc b) = S (Proc.devRef .tc b) := by
  intro b hb
  simp only [kept, List.mem_cons, List.mem_nil_iff, or_false] at hb
  rcases hb with rfl | rfl | rfl | rfl | rfl | rfl | rfl | rfl | rfl | rfl
  all_goals after_results_simp

/-- Before the last kernel: the third kernel's result aggregated (64 features). -/
theorem s3_agg : StableHlo.after hostOps3 S (Proc.devRef .tc main_v73)
    = agg64 (S (Proc.devRef .tc main_v3)) (S (Proc.devRef .tc main_v6)) (S (Proc.devRef .tc main_v29)) (S (Proc.devRef .tc main_v60)) := by
  after_results_simp
  rfl

theorem s3_bias : StableHlo.after hostOps3 S (Proc.devRef .tc main_v74)
    = shapeCast S1x64 (S (Proc.devRef .tc main_arg7)) shapeCasts_S64_S1x64 := by
  after_results_simp
  rfl

theorem s3_bias' : StableHlo.after hostOps3 S (Proc.devRef .tc main_v75)
    = shapeCast S1x1 (S (Proc.devRef .tc main_arg9)) shapeCasts_S1_S1x1 := by
  after_results_simp
  rfl

theorem s3_kept : ∀ b ∈ kept, StableHlo.after hostOps3 S (Proc.devRef .tc b) = S (Proc.devRef .tc b) := by
  intro b hb
  simp only [kept, List.mem_cons, List.mem_nil_iff, or_false] at hb
  rcases hb with rfl | rfl | rfl | rfl | rfl | rfl | rfl | rfl | rfl | rfl
  all_goals after_results_simp

end Stretches

/-- A bias vector laid out as one row reads, in that row, the vector. -/
theorem row_of {k : Nat} (b : (⟨1, ![k]⟩ : Shape).Idx → EReal) (h : (⟨1, ![k]⟩ : Shape).ShapeCasts ⟨2, ![1, k]⟩) :
    (fun q : Fin k => shapeCast ⟨2, ![1, k]⟩ b h (ix2 (0 : Fin 1) q)) = fun q => b (ix1 q) :=
  funext fun q => shapeCast_a_1a_apply b h 0 q

/-! ## The fold at the program's boundaries -/

variable (m : (ℓ : Loc nD τ sig) → Buf (Elt Ideal) ℓ) (ρ : Dev nD → PrngReg) (c : Dev nD)

/-- No kernel writes a kept buffer: it is none of the kernel's arrays, or it is the array of an input window, which the
    kernel leaves as it found it. -/
theorem k0 : ∀ b ∈ kept, W4 m ρ c (Proc.devRef .tc b) = W3 m ρ c (Proc.devRef .tc b) := by
  intro b hb
  simp only [kept, List.mem_cons, List.mem_nil_iff, or_false] at hb
  rcases hb with rfl | rfl | rfl | rfl | rfl | rfl | rfl | rfl | rfl | rfl
  all_goals exact W4_of_ne m ρ c _ (by decide)

theorem k1 : ∀ b ∈ kept, W6 m ρ c (Proc.devRef .tc b) = W5 m ρ c (Proc.devRef .tc b) := by
  intro b hb
  simp only [kept, List.mem_cons, List.mem_nil_iff, or_false] at hb
  rcases hb with rfl | rfl | rfl | rfl | rfl | rfl | rfl | rfl | rfl | rfl
  all_goals first
    | exact W6_of_ne m ρ c _ (by decide)
    | exact (W6_arr m ρ c 2).trans (((dat1 (V5 m ρ) c).arrAt_in 2 rfl _).trans (A_eq1 (V5 m ρ) c 2))

theorem k2 : ∀ b ∈ kept, W8 m ρ c (Proc.devRef .tc b) = W7 m ρ c (Proc.devRef .tc b) := by
  intro b hb
  simp only [kept, List.mem_cons, List.mem_nil_iff, or_false] at hb
  rcases hb with rfl | rfl | rfl | rfl | rfl | rfl | rfl | rfl | rfl | rfl
  all_goals first
    | exact W8_of_ne m ρ c _ (by decide)
    | exact (W8_arr m ρ c 2).trans (((dat2 (V7 m ρ) c).arrAt_in 2 rfl _).trans (A_eq2 (V7 m ρ) c 2))

/-- A kept buffer holds at every later boundary what it held when the first kernel was entered. -/
theorem at4 (b : Ref sig .tc) (hb : b ∈ kept) : W4 m ρ c (Proc.devRef .tc b) = W3 m ρ c (Proc.devRef .tc b) := k0 m ρ c b hb
theorem at5 (b : Ref sig .tc) (hb : b ∈ kept) : W5 m ρ c (Proc.devRef .tc b) = W3 m ρ c (Proc.devRef .tc b) :=
  (s1_kept (W4 m ρ c) b hb).trans (at4 m ρ c b hb)
theorem at6 (b : Ref sig .tc) (hb : b ∈ kept) : W6 m ρ c (Proc.devRef .tc b) = W3 m ρ c (Proc.devRef .tc b) :=
  (k1 m ρ c b hb).trans (at5 m ρ c b hb)
theorem at7 (b : Ref sig .tc) (hb : b ∈ kept) : W7 m ρ c (Proc.devRef .tc b) = W3 m ρ c (Proc.devRef .tc b) :=
  (s2_kept (W6 m ρ c) b hb).trans (at6 m ρ c b hb)
theorem at8 (b : Ref sig .tc) (hb : b ∈ kept) : W8 m ρ c (Proc.devRef .tc b) = W3 m ρ c (Proc.devRef .tc b) :=
  (k2 m ρ c b hb).trans (at7 m ρ c b hb)
theorem at9 (b : Ref sig .tc) (hb : b ∈ kept) : W9 m ρ c (Proc.devRef .tc b) = W3 m ρ c (Proc.devRef .tc b) :=
  (s3_kept (W8 m ρ c) b hb).trans (at8 m ρ c b hb)

/-- When the first kernel is entered the arguments are as launched, -/
theorem arg3 (b : Ref sig .tc) (hb : b ∈ floats) : W3 m ρ c (Proc.devRef .tc b) = m ((c : Thread nD τ).loc b) :=
  pre_floats (W0 m ρ c) b hb
/-- the sources, the destinations and the edge weights are those of the edge list. -/
theorem src3 : W3 m ρ c (Proc.devRef .tc main_v3) = srcOf (m ((c : Thread nD τ).loc main_arg1)) := pre_src (W0 m ρ c)
theorem dst3 : W3 m ρ c (Proc.devRef .tc main_v6) = dstOf (m ((c : Thread nD τ).loc main_arg1)) := pre_dst (W0 m ρ c)
theorem nrm3 : W3 m ρ c (Proc.devRef .tc main_v29)
    = nrmOf (srcOf (m ((c : Thread nD τ).loc main_arg1))) (dstOf (m ((c : Thread nD τ).loc main_arg1))) := pre_nrm (W0 m ρ c)

local notation "𝐚" b => m ((c : Thread nD τ).loc b)
local notation "𝐬" => srcOf (m ((c : Thread nD τ).loc main_arg1))
local notation "𝐝" => dstOf (m ((c : Thread nD τ).loc main_arg1))
local notation "𝐧" => nrmOf (srcOf (m ((c : Thread nD τ).loc main_arg1))) (dstOf (m ((c : Thread nD τ).loc main_arg1)))

/-! ## The four kernels and the aggregations between them -/

/-- The first kernel leaves the features times the first weights. -/
theorem layer0 : W4 m ρ c (Proc.devRef .tc main_v30) = proj (n := 100000) (k := 128) (m := 128) (𝐚 main_arg0) (𝐚 main_arg2) := by
  refine (W4_arr m ρ c 2).trans ((Reg0.final (V3 m ρ) c).trans ?_)
  show proj (n := 100000) (k := 128) (m := 128) (W3 m ρ c (Proc.devRef .tc main_arg0)) (W3 m ρ c (Proc.devRef .tc main_arg2)) = _
  rw [arg3 m ρ c main_arg0 (by simp [floats]), arg3 m ρ c main_arg2 (by simp [floats])]

theorem agg1 : W5 m ρ c (Proc.devRef .tc main_v43)
    = agg128 𝐬 𝐝 𝐧 (proj (n := 100000) (k := 128) (m := 128) (𝐚 main_arg0) (𝐚 main_arg2)) := by
  refine (s1_agg (W4 m ρ c)).trans ?_
  rw [at4 m ρ c main_v3 (by simp [kept]), at4 m ρ c main_v6 (by simp [kept]), at4 m ρ c main_v29 (by simp [kept]),
    src3, dst3, nrm3, layer0]

theorem bias1 : W5 m ρ c (Proc.devRef .tc main_v44) = shapeCast S1x128 (𝐚 main_arg3) shapeCasts_S128_S1x128 := by
  refine (s1_bias (W4 m ρ c)).trans ?_
  rw [at4 m ρ c main_arg3 (by simp [kept]), arg3 m ρ c main_arg3 (by simp [floats])]

theorem w1 : W5 m ρ c (Proc.devRef .tc main_arg4) = 𝐚 main_arg4 :=
  (at5 m ρ c main_arg4 (by simp [kept])).trans (arg3 m ρ c main_arg4 (by simp [floats]))

/-- The second kernel leaves the hidden layer of the first aggregation. -/
theorem layer1 : W6 m ρ c (Proc.devRef .tc main_v45)
    = Layers.hidden (n := 100000) (k := 128) (m := 128)
        (agg128 𝐬 𝐝 𝐧 (proj (n := 100000) (k := 128) (m := 128) (𝐚 main_arg0) (𝐚 main_arg2)))
        (fun q => (𝐚 main_arg3) (ix1 q)) (𝐚 main_arg4) := by
  refine (W6_arr m ρ c 3).trans ((Reg1.final (V5 m ρ) c).trans ?_)
  show Layers.hidden (n := 100000) (k := 128) (m := 128) (W5 m ρ c (Proc.devRef .tc main_v43))
      (fun q => W5 m ρ c (Proc.devRef .tc main_v44) (ix2 (0 : Fin 1) q)) (W5 m ρ c (Proc.devRef .tc main_arg4)) = _
  rw [agg1, bias1, w1, row_of]

theorem agg2 : W7 m ρ c (Proc.devRef .tc main_v58)
    = agg128 𝐬 𝐝 𝐧 (Layers.hidden (n := 100000) (k := 128) (m := 128)
        (agg128 𝐬 𝐝 𝐧 (proj (n := 100000) (k := 128) (m := 128) (𝐚 main_arg0) (𝐚 main_arg2)))
        (fun q => (𝐚 main_arg3) (ix1 q)) (𝐚 main_arg4)) := by
  refine (s2_agg (W6 m ρ c)).trans ?_
  rw [at6 m ρ c main_v3 (by simp [kept]), at6 m ρ c main_v6 (by simp [kept]), at6 m ρ c main_v29 (by simp [kept]),
    src3, dst3, nrm3, layer1]

theorem bias2 : W7 m ρ c (Proc.devRef .tc main_v59) = shapeCast S1x128 (𝐚 main_arg5) shapeCasts_S128_S1x128 := by
  refine (s2_bias (W6 m ρ c)).trans ?_
  rw [at6 m ρ c main_arg5 (by simp [kept]), arg3 m ρ c main_arg5 (by simp [floats])]

theorem w2 : W7 m ρ c (Proc.devRef .tc main_arg6) = 𝐚 main_arg6 :=
  (at7 m ρ c main_arg6 (by simp [kept])).trans (arg3 m ρ c main_arg6 (by simp [floats]))

/-- The third kernel leaves the hidden layer (into 64 features) of the second aggregation. -/
theorem layer2 : W8 m ρ c (Proc.devRef .tc main_v60)
    = Layers.hidden (n := 100000) (k := 128) (m := 64)
        (agg128 𝐬 𝐝 𝐧 (Layers.hidden (n := 100000) (k := 128) (m := 128)
          (agg128 𝐬 𝐝 𝐧 (proj (n := 100000) (k := 128) (m := 128) (𝐚 main_arg0) (𝐚 main_arg2)))
          (fun q => (𝐚 main_arg3) (ix1 q)) (𝐚 main_arg4)))
        (fun q => (𝐚 main_arg5) (ix1 q)) (𝐚 main_arg6) := by
  refine (W8_arr m ρ c 3).trans ((Reg2.final (V7 m ρ) c).trans ?_)
  show Layers.hidden (n := 100000) (k := 128) (m := 64) (W7 m ρ c (Proc.devRef .tc main_v58))
      (fun q => W7 m ρ c (Proc.devRef .tc main_v59) (ix2 (0 : Fin 1) q)) (W7 m ρ c (Proc.devRef .tc main_arg6)) = _
  rw [agg2, bias2, w2, row_of]

theorem agg3 : W9 m ρ c (Proc.devRef .tc main_v73)
    = agg64 𝐬 𝐝 𝐧 (Layers.hidden (n := 100000) (k := 128) (m := 64)
        (agg128 𝐬 𝐝 𝐧 (Layers.hidden (n := 100000) (k := 128) (m := 128)
          (agg128 𝐬 𝐝 𝐧 (proj (n := 100000) (k := 128) (m := 128) (𝐚 main_arg0) (𝐚 main_arg2)))
          (fun q => (𝐚 main_arg3) (ix1 q)) (𝐚 main_arg4)))
        (fun q => (𝐚 main_arg5) (ix1 q)) (𝐚 main_arg6)) := by
  refine (s3_agg (W8 m ρ c)).trans ?_
  rw [at8 m ρ c main_v3 (by simp [kept]), at8 m ρ c main_v6 (by simp [kept]), at8 m ρ c main_v29 (by simp [kept]),
    src3, dst3, nrm3, layer2]

theorem bias3 : W9 m ρ c (Proc.devRef .tc main_v74) = shapeCast S1x64 (𝐚 main_arg7) shapeCasts_S64_S1x64 := by
  refine (s3_bias (W8 m ρ c)).trans ?_
  rw [at8 m ρ c main_arg7 (by simp [kept]), arg3 m ρ c main_arg7 (by simp [floats])]

theorem bias3' : W9 m ρ c (Proc.devRef .tc main_v75) = shapeCast S1x1 (𝐚 main_arg9) shapeCasts_S1_S1x1 := by
  refine (s3_bias' (W8 m ρ c)).trans ?_
  rw [at8 m ρ c main_arg9 (by simp [kept]), arg3 m ρ c main_arg9 (by simp [floats])]

theorem w3 : W9 m ρ c (Proc.devRef .tc main_arg8) = 𝐚 main_arg8 :=
  (at9 m ρ c main_arg8 (by simp [kept])).trans (arg3 m ρ c main_arg8 (by simp [floats]))

/-- THE KERNEL PROGRAM'S RESULT: the last kernel leaves the head of the third aggregation — the network of the arguments
    as launched. -/
theorem value : W10 m ρ c (Proc.devRef .tc main_v76)
    = net (𝐚 main_arg0) (𝐚 main_arg1) (𝐚 main_arg2) (𝐚 main_arg3) (𝐚 main_arg4) (𝐚 main_arg5) (𝐚 main_arg6) (𝐚 main_arg7)
        (𝐚 main_arg8) (𝐚 main_arg9) := by
  refine (W10_arr m ρ c 4).trans ((Reg3.final (V9 m ρ) c).trans ?_)
  show head (n := 100000) (k := 64) (m := 1) (W9 m ρ c (Proc.devRef .tc main_v73))
      (fun q => W9 m ρ c (Proc.devRef .tc main_v74) (ix2 (0 : Fin 1) q)) (W9 m ρ c (Proc.devRef .tc main_arg8))
      (fun j => W9 m ρ c (Proc.devRef .tc main_v75) (ix2 (0 : Fin 1) j)) = _
  rw [agg3, bias3, w3, bias3', row_of, row_of]
  rfl

end Cert.KernelIdeal.Chain

end
-- ==== Proof.RefValue.lean ====
/-
  The reference program's result as a function of its arguments.

  The reference is one line of 110 host operations.  Cut into eight consecutive stretches it reads exactly as the kernel
  program does: the first stretch computes the sources, the destinations and the edge weights from the edge list; then
  come, in turn, a dense layer (one `dot_general`, from the second layer on under a broadcast bias and a `maximum` with
  zero) and an aggregation over the edges (the shared function of `Cert.Stretch`), three times, and the biased head.
  No stretch after the first writes the three edge vectors or an argument.  Each stretch is read from arbitrary contents
  `S`; composing them from the launch memory gives the network `net` of the arguments.
-/
import proofs.«114022_j17540646437275_1_alg».proof.Proof.RefRunP
import proofs.«114022_j17540646437275_1_alg».proof.Proof.Stretch

set_option quotPrecheck false
set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.ShloMosaic.ValueIdx Idealize.ShloMosaic.StableHlo Idealize.SL.Sem
open Cert.Layers Cert.Stretch

/-- A line of operations run in two parts. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- The whole line. -/
abbrev line : List (HloOp τ sig (Elt Ideal)) := ops (F := Ideal)

/-- Its eight stretches: the edge vectors; then a dense layer and an aggregation, three times; then the head. -/
abbrev edges : List (HloOp τ sig (Elt Ideal)) := line.take 40
/-- The first stretch in two: the edges' two ends (7 operations), then the degrees and the edge weights (33). -/
abbrev ends : List (HloOp τ sig (Elt Ideal)) := line.take 7
abbrev weights : List (HloOp τ sig (Elt Ideal)) := (line.drop 7).take 33
abbrev dense0 : List (HloOp τ sig (Elt Ideal)) := (line.drop 40).take 1
abbrev gather1 : List (HloOp τ sig (Elt Ideal)) := (line.drop 41).take 16
abbrev dense1 : List (HloOp τ sig (Elt Ideal)) := (line.drop 57).take 7
abbrev gather2 : List (HloOp τ sig (Elt Ideal)) := (line.drop 64).take 16
abbrev dense2 : List (HloOp τ sig (Elt Ideal)) := (line.drop 80).take 7
abbrev gather3 : List (HloOp τ sig (Elt Ideal)) := (line.drop 87).take 16
abbrev dense3 : List (HloOp τ sig (Elt Ideal)) := line.drop 103

theorem edges_eq : edges = ends ++ weights := by
  rfl

theorem line_eq : line = edges ++ (dense0 ++ (gather1 ++ (dense1 ++ (gather2 ++ (dense2 ++ (gather3 ++ dense3)))))) := by
  rfl

section Stretches

variable (S : Valuation τ sig (Elt Ideal))

/-- The buffers no stretch after the first writes: the sources, the destinations, the edge weights, and the arguments
    read later. -/
def kept : List (Ref sig .tc) :=
  [main_v3, main_v6, main_v29, main_arg3, main_arg4, main_arg5, main_arg6, main_arg7, main_arg8, main_arg9]

/-- The arguments the program reads, other than the edge list. -/
def floats : List (Ref sig .tc) :=
  [main_arg0, main_arg2, main_arg3, main_arg4, main_arg5, main_arg6, main_arg7, main_arg8, main_arg9]

theorem ends_src : after ends S (Proc.devRef .tc main_v3) = srcOf (S (Proc.devRef .tc main_arg1)) := by
  simp only [ends, line, ops, List.take, List.drop]
  after_results
  rfl

theorem ends_dst : after ends S (Proc.devRef .tc main_v6) = dstOf (S (Proc.devRef .tc main_arg1)) := by
  simp only [ends, line, ops, List.take, List.drop]
  after_results
  rfl

theorem weights_src : after weights S (Proc.devRef .tc main_v3) = (S (Proc.devRef .tc main_v3)) := by
  simp only [weights, line, ops, List.take, List.drop]
  after_results_simp

theorem weights_dst : after weights S (Proc.devRef .tc main_v6) = (S (Proc.devRef .tc main_v6)) := by
  simp only [weights, line, ops, List.take, List.drop]
  after_results_simp

/-- The inverse roots as the program spells them — the mask, the root and the zero splat each read through its typed
    buffer — are the plain selection: those readings are the identity. -/
theorem dinv_plain (D : FVec Ideal S100000 .f32) :
    (TRef.of (sig := sig) (T := ⟨S100000, .f32⟩) main_v14).toBuf (Val := Elt Ideal)
      (select ((TRef.of (sig := sig) (T := ⟨S100000, .i1⟩) main_v12).ofBuf (Val := Elt Ideal)
          (cmpf .ogt D (broadcastInDim S100000 ![] bcast_S_S100000 (constant (F := Ideal) S_ .f32 0x00000000#32))))
        ((TRef.of (sig := sig) (T := ⟨S100000, .f32⟩) main_v13).ofBuf (Val := Elt Ideal) (Host.rsqrt D))
        ((TRef.of (sig := sig) (T := ⟨S100000, .f32⟩) main_call0_v1).ofBuf (Val := Elt Ideal)
          ((TRef.of (sig := sig) (T := ⟨S100000, .f32⟩) main_call0_v1).toBuf (Val := Elt Ideal)
            (broadcastInDim S100000 ![] bcast_S_S100000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_2).ofBuf (Val := Elt Ideal)
                    (constant (F := Ideal) S_ .f32 0x00000000#32)))))))))
    = select (cmpf .ogt D (broadcastInDim S100000 ![] bcast_S_S100000 (constant (F := Ideal) S_ .f32 0x00000000#32))) (Host.rsqrt D)
        (broadcastInDim S100000 ![] bcast_S_S100000 (id (constant (F := Ideal) S_ .f32 0x00000000#32))) := by
  rfl

/-- The edge weights, from the two ends. -/
theorem weights_nrm : after weights S (Proc.devRef .tc main_v29) = nrmOf (S (Proc.devRef .tc main_v3)) (S (Proc.devRef .tc main_v6)) := by
  simp only [weights, line, ops, List.take, List.drop]
  after_results_simp
  rw [dinv_plain]
  rfl

theorem edges_src : after edges S (Proc.devRef .tc main_v3) = srcOf (S (Proc.devRef .tc main_arg1)) := by
  rw [edges_eq, after_append]
  exact (weights_src (after ends S)).trans (ends_src S)

theorem edges_dst : after edges S (Proc.devRef .tc main_v6) = dstOf (S (Proc.devRef .tc main_arg1)) := by
  rw [edges_eq, after_append]
  exact (weights_dst (after ends S)).trans (ends_dst S)

theorem edges_nrm : after edges S (Proc.devRef .tc main_v29) = nrmOf (srcOf (S (Proc.devRef .tc main_arg1))) (dstOf (S (Proc.devRef .tc main_arg1))) := by
  rw [edges_eq, after_append]
  refine (weights_nrm (after ends S)).trans ?_
  rw [ends_src, ends_dst]

theorem edges_floats : ∀ b ∈ floats, after edges S (Proc.devRef .tc b) = S (Proc.devRef .tc b) := by
  intro b hb
  simp only [floats, List.mem_cons, List.mem_nil_iff, or_false] at hb
  rcases hb with rfl | rfl | rfl | rfl | rfl | rfl | rfl | rfl | rfl
  all_goals (simp only [edges, line, ops, List.take, List.drop]; after_results_simp)

/-- The first layer: the features times the first weights. -/
theorem dense0_val : after dense0 S (Proc.devRef .tc main_v30)
    = proj (n := 100000) (k := 128) (m := 128) (S (Proc.devRef .tc main_arg0)) (S (Proc.devRef .tc main_arg2)) := by
  simp only [dense0, line, ops, List.take, List.drop]
  after_results_simp
  exact dotGeneral_eq_proj (n := 100000) (k := 128) (m := 128) dot_S100000x128_S128x128_S100000x128_1_0_0_1_n_n rfl (S (Proc.devRef .tc main_arg0)) (S (Proc.devRef .tc main_arg2))

theorem dense0_kept : ∀ b ∈ kept, after dense0 S (Proc.devRef .tc b) = S (Proc.devRef .tc b) := by
  intro b hb
  simp only [kept, List.mem_cons, List.mem_nil_iff, or_false] at hb
  rcases hb with rfl | rfl | rfl | rfl | rfl | rfl | rfl | rfl | rfl | rfl
  all_goals (simp only [dense0, line, ops, List.take, List.drop]; after_results_simp)

/-- The first aggregation. -/
theorem gather1_val : after gather1 S (Proc.devRef .tc main_v43)
    = agg128 (S (Proc.devRef .tc main_v3)) (S (Proc.devRef .tc main_v6)) (S (Proc.devRef .tc main_v29)) (S (Proc.devRef .tc main_v30)) := by
  simp only [gather1, line, ops, List.take, List.drop]
  after_results_simp
  rfl

theorem gather1_kept : ∀ b ∈ kept, after gather1 S (Proc.devRef .tc b) = S (Proc.devRef .tc b) := by
  intro b hb
  simp only [kept, List.mem_cons, List.mem_nil_iff, or_false] at hb
  rcases hb with rfl | rfl | rfl | rfl | rfl | rfl | rfl | rfl | rfl | rfl
  all_goals (simp only [gather1, line, ops, List.take, List.drop]; after_results_simp)

/-- The second layer: bias, positive part, weights. -/
theorem dense1_val : after dense1 S (Proc.devRef .tc main_v48)
    = Layers.hidden (n := 100000) (k := 128) (m := 128) (S (Proc.devRef .tc main_v43)) (fun q => (S (Proc.devRef .tc main_arg3)) (ix1 q)) (S (Proc.devRef .tc main_arg4)) := by
  simp only [dense1, line, ops, List.take, List.drop]
  after_results_simp
  exact dotGeneral_eq_hidden (n := 100000) (k := 128) (m := 128) dot_S100000x128_S128x128_S100000x128_1_0_0_1_n_n rfl (S (Proc.devRef .tc main_v43))
    (S (Proc.devRef .tc main_arg3)) (S (Proc.devRef .tc main_arg4)) bcast_S128_S1x128_1 bcast_S1x128_S100000x128_0_1 bcast_S_S100000x128

theorem dense1_kept : ∀ b ∈ kept, after dense1 S (Proc.devRef .tc b) = S (Proc.devRef .tc b) := by
  intro b hb
  simp only [kept, List.mem_cons, List.mem_nil_iff, or_false] at hb
  rcases hb with rfl | rfl | rfl | rfl | rfl | rfl | rfl | rfl | rfl | rfl
  all_goals (simp only [dense1, line, ops, List.take, List.drop]; after_results_simp)

/-- The second aggregation. -/
theorem gather2_val : after gather2 S (Proc.devRef .tc main_v61)
    = agg128 (S (Proc.devRef .tc main_v3)) (S (Proc.devRef .tc main_v6)) (S (Proc.devRef .tc main_v29)) (S (Proc.devRef .tc main_v48)) := by
  simp only [gather2, line, ops, List.take, List.drop]
  after_results_simp
  rfl

theorem gather2_kept : ∀ b ∈ kept, after gather2 S (Proc.devRef .tc b) = S (Proc.devRef .tc b) := by
  intro b hb
  simp only [kept, List.mem_cons, List.mem_nil_iff, or_false] at hb
  rcases hb with rfl | rfl | rfl | rfl | rfl | rfl | rfl | rfl | rfl | rfl
  all_goals (simp only [gather2, line, ops, List.take, List.drop]; after_results_simp)

/-- The third layer, into 64 features. -/
theorem dense2_val : after dense2 S (Proc.devRef .tc main_v66)
    = Layers.hidden (n := 100000) (k := 128) (m := 64) (S (Proc.devRef .tc main_v61)) (fun q => (S (Proc.devRef .tc main_arg5)) (ix1 q)) (S (Proc.devRef .tc main_arg6)) := by
  simp only [dense2, line, ops, List.take, List.drop]
  after_results_simp
  exact dotGeneral_eq_hidden (n := 100000) (k := 128) (m := 64) dot_S100000x128_S128x64_S100000x64_1_0_0_1_n_n rfl (S (Proc.devRef .tc main_v61))
    (S (Proc.devRef .tc main_arg5)) (S (Proc.devRef .tc main_arg6)) bcast_S128_S1x128_1 bcast_S1x128_S100000x128_0_1 bcast_S_S100000x128

theorem dense2_kept : ∀ b ∈ kept, after dense2 S (Proc.devRef .tc b) = S (Proc.devRef .tc b) := by
  intro b hb
  simp only [kept, List.mem_cons, List.mem_nil_iff, or_false] at hb
  rcases hb with rfl | rfl | rfl | rfl | rfl | rfl | rfl | rfl | rfl | rfl
  all_goals (simp only [dense2, line, ops, List.take, List.drop]; after_results_simp)

/-- The third aggregation (64 features). -/
theorem gather3_val : after gather3 S (Proc.devRef .tc main_v79)
    = agg64 (S (Proc.devRef .tc main_v3)) (S (Proc.devRef .tc main_v6)) (S (Proc.devRef .tc main_v29)) (S (Proc.devRef .tc main_v66)) := by
  simp only [gather3, line, ops, List.take, List.drop]
  after_results_simp
  rfl

theorem gather3_kept : ∀ b ∈ kept, after gather3 S (Proc.devRef .tc b) = S (Proc.devRef .tc b) := by
  intro b hb
  simp only [kept, List.mem_cons, List.mem_nil_iff, or_false] at hb
  rcases hb with rfl | rfl | rfl | rfl | rfl | rfl | rfl | rfl | rfl | rfl
  all_goals (simp only [gather3, line, ops, List.take, List.drop]; after_results_simp)

/-- The head: bias, the 64-by-1 weights, the last bias. -/
theorem dense3_val : after dense3 S (Proc.devRef .tc main_v86)
    = head (n := 100000) (k := 64) (m := 1) (S (Proc.devRef .tc main_v79)) (fun q => (S (Proc.devRef .tc main_arg7)) (ix1 q)) (S (Proc.devRef .tc main_arg8))
        (fun j => (S (Proc.devRef .tc main_arg9)) (ix1 j)) := by
  simp only [dense3, line, ops, List.take, List.drop]
  after_results_simp
  exact dotGeneral_eq_head (n := 100000) (k := 64) (m := 1) dot_S100000x64_S64x1_S100000x1_1_0_0_1_n_n rfl (S (Proc.devRef .tc main_v79))
    (S (Proc.devRef .tc main_arg7)) (S (Proc.devRef .tc main_arg8)) (S (Proc.devRef .tc main_arg9))
    bcast_S64_S1x64_1 bcast_S1x64_S100000x64_0_1 bcast_S1_S1x1_1 bcast_S1x1_S100000x1_0_1

end Stretches

/-! ## The stretches composed from the launch memory -/

variable (m : (ℓ : Loc nD τ sig) → Buf (Elt Ideal) ℓ) (c : Dev nD)

/-- The contents after each stretch. -/
abbrev V0 : Valuation τ sig (Elt Ideal) := launchContents m c
abbrev V1 : Valuation τ sig (Elt Ideal) := after edges (V0 m c)
abbrev V2 : Valuation τ sig (Elt Ideal) := after dense0 (V1 m c)
abbrev V3 : Valuation τ sig (Elt Ideal) := after gather1 (V2 m c)
abbrev V4 : Valuation τ sig (Elt Ideal) := after dense1 (V3 m c)
abbrev V5 : Valuation τ sig (Elt Ideal) := after gather2 (V4 m c)
abbrev V6 : Valuation τ sig (Elt Ideal) := after dense2 (V5 m c)
abbrev V7 : Valuation τ sig (Elt Ideal) := after gather3 (V6 m c)

/-- A kept buffer holds after every later stretch what it held after the first. -/
theorem at2 (b : Ref sig .tc) (hb : b ∈ kept) : V2 m c (Proc.devRef .tc b) = V1 m c (Proc.devRef .tc b) := dense0_kept (V1 m c) b hb
theorem at3 (b : Ref sig .tc) (hb : b ∈ kept) : V3 m c (Proc.devRef .tc b) = V1 m c (Proc.devRef .tc b) :=
  (gather1_kept (V2 m c) b hb).trans (at2 m c b hb)
theorem at4 (b : Ref sig .tc) (hb : b ∈ kept) : V4 m c (Proc.devRef .tc b) = V1 m c (Proc.devRef .tc b) :=
  (dense1_kept (V3 m c) b hb).trans (at3 m c b hb)
theorem at5 (b : Ref sig .tc) (hb : b ∈ kept) : V5 m c (Proc.devRef .tc b) = V1 m c (Proc.devRef .tc b) :=
  (gather2_kept (V4 m c) b hb).trans (at4 m c b hb)
theorem at6 (b : Ref sig .tc) (hb : b ∈ kept) : V6 m c (Proc.devRef .tc b) = V1 m c (Proc.devRef .tc b) :=
  (dense2_kept (V5 m c) b hb).trans (at5 m c b hb)
theorem at7 (b : Ref sig .tc) (hb : b ∈ kept) : V7 m c (Proc.devRef .tc b) = V1 m c (Proc.devRef .tc b) :=
  (gather3_kept (V6 m c) b hb).trans (at6 m c b hb)

/-- After the first stretch the arguments are as launched, and the edge vectors are those of the edge list. -/
theorem arg1 (b : Ref sig .tc) (hb : b ∈ floats) : V1 m c (Proc.devRef .tc b) = m ((c.tc : Thread nD τ).loc b) :=
  edges_floats (V0 m c) b hb
theorem src1 : V1 m c (Proc.devRef .tc main_v3) = srcOf (m ((c.tc : Thread nD τ).loc main_arg1)) := edges_src (V0 m c)
theorem dst1 : V1 m c (Proc.devRef .tc main_v6) = dstOf (m ((c.tc : Thread nD τ).loc main_arg1)) := edges_dst (V0 m c)
theorem nrm1 : V1 m c (Proc.devRef .tc main_v29)
    = nrmOf (srcOf (m ((c.tc : Thread nD τ).loc main_arg1))) (dstOf (m ((c.tc : Thread nD τ).loc main_arg1))) := edges_nrm (V0 m c)

local notation "𝐚" b => m ((c.tc : Thread nD τ).loc b)
local notation "𝐬" => srcOf (m ((c.tc : Thread nD τ).loc main_arg1))
local notation "𝐝" => dstOf (m ((c.tc : Thread nD τ).loc main_arg1))
local notation "𝐧" => nrmOf (srcOf (m ((c.tc : Thread nD τ).loc main_arg1))) (dstOf (m ((c.tc : Thread nD τ).loc main_arg1)))

theorem layer0 : V2 m c (Proc.devRef .tc main_v30) = proj (n := 100000) (k := 128) (m := 128) (𝐚 main_arg0) (𝐚 main_arg2) := by
  refine (dense0_val (V1 m c)).trans ?_
  rw [arg1 m c main_arg0 (by simp [floats]), arg1 m c main_arg2 (by simp [floats])]

theorem agg1 : V3 m c (Proc.devRef .tc main_v43)
    = agg128 𝐬 𝐝 𝐧 (proj (n := 100000) (k := 128) (m := 128) (𝐚 main_arg0) (𝐚 main_arg2)) := by
  refine (gather1_val (V2 m c)).trans ?_
  rw [at2 m c main_v3 (by simp [kept]), at2 m c main_v6 (by simp [kept]), at2 m c main_v29 (by simp [kept]),
    src1, dst1, nrm1, layer0]

theorem layer1 : V4 m c (Proc.devRef .tc main_v48)
    = Layers.hidden (n := 100000) (k := 128) (m := 128)
        (agg128 𝐬 𝐝 𝐧 (proj (n := 100000) (k := 128) (m := 128) (𝐚 main_arg0) (𝐚 main_arg2)))
        (fun q => (𝐚 main_arg3) (ix1 q)) (𝐚 main_arg4) := by
  refine (dense1_val (V3 m c)).trans ?_
  rw [agg1, at3 m c main_arg3 (by simp [kept]), at3 m c main_arg4 (by simp [kept]),
    arg1 m c main_arg3 (by simp [floats]), arg1 m c main_arg4 (by simp [floats])]

theorem agg2 : V5 m c (Proc.devRef .tc main_v61)
    = agg128 𝐬 𝐝 𝐧 (Layers.hidden (n := 100000) (k := 128) (m := 128)
        (agg128 𝐬 𝐝 𝐧 (proj (n := 100000) (k := 128) (m := 128) (𝐚 main_arg0) (𝐚 main_arg2)))
        (fun q => (𝐚 main_arg3) (ix1 q)) (𝐚 main_arg4)) := by
  refine (gather2_val (V4 m c)).trans ?_
  rw [at4 m c main_v3 (by simp [kept]), at4 m c main_v6 (by simp [kept]), at4 m c main_v29 (by simp [kept]),
    src1, dst1, nrm1, layer1]

theorem layer2 : V6 m c (Proc.devRef .tc main_v66)
    = Layers.hidden (n := 100000) (k := 128) (m := 64)
        (agg128 𝐬 𝐝 𝐧 (Layers.hidden (n := 100000) (k := 128) (m := 128)
          (agg128 𝐬 𝐝 𝐧 (proj (n := 100000) (k := 128) (m := 128) (𝐚 main_arg0) (𝐚 main_arg2)))
          (fun q => (𝐚 main_arg3) (ix1 q)) (𝐚 main_arg4)))
        (fun q => (𝐚 main_arg5) (ix1 q)) (𝐚 main_arg6) := by
  refine (dense2_val (V5 m c)).trans ?_
  rw [agg2, at5 m c main_arg5 (by simp [kept]), at5 m c main_arg6 (by simp [kept]),
    arg1 m c main_arg5 (by simp [floats]), arg1 m c main_arg6 (by simp [floats])]

theorem agg3 : V7 m c (Proc.devRef .tc main_v79)
    = agg64 𝐬 𝐝 𝐧 (Layers.hidden (n := 100000) (k := 128) (m := 64)
        (agg128 𝐬 𝐝 𝐧 (Layers.hidden (n := 100000) (k := 128) (m := 128)
          (agg128 𝐬 𝐝 𝐧 (proj (n := 100000) (k := 128) (m := 128) (𝐚 main_arg0) (𝐚 main_arg2)))
          (fun q => (𝐚 main_arg3) (ix1 q)) (𝐚 main_arg4)))
        (fun q => (𝐚 main_arg5) (ix1 q)) (𝐚 main_arg6)) := by
  refine (gather3_val (V6 m c)).trans ?_
  rw [at6 m c main_v3 (by simp [kept]), at6 m c main_v6 (by simp [kept]), at6 m c main_v29 (by simp [kept]),
    src1, dst1, nrm1, layer2]

/-- THE REFERENCE'S RESULT: the network of the arguments as launched. -/
theorem value : after line (launchContents m c) (Proc.devRef .tc main_v86)
    = net (𝐚 main_arg0) (𝐚 main_arg1) (𝐚 main_arg2) (𝐚 main_arg3) (𝐚 main_arg4) (𝐚 main_arg5) (𝐚 main_arg6) (𝐚 main_arg7)
        (𝐚 main_arg8) (𝐚 main_arg9) := by
  rw [line_eq]
  simp only [after_append]
  refine (dense3_val (V7 m c)).trans ?_
  rw [agg3, at7 m c main_arg7 (by simp [kept]), at7 m c main_arg8 (by simp [kept]), at7 m c main_arg9 (by simp [kept]),
    arg1 m c main_arg7 (by simp [floats]), arg1 m c main_arg8 (by simp [floats]), arg1 m c main_arg9 (by simp [floats])]
  rfl

end Cert.ReferenceIdeal.RefValue

end
-- ==== Proof.lean ====
/-
  A three-layer graph-convolution network with a one-column head, computed two ways, gives the same result on the
  extended reals.

  Both programs build, from the edge list, the edges' sources and destinations (a self loop appended per node), the
  nodes' degrees and the symmetric edge weights, with the same host operations.  Both then alternate a dense layer and an
  aggregation over the edges (gather the rows at the sources, scale by the edge weights, scatter-add at the
  destinations), three times, and finish with a biased dense head.  They differ only in WHERE the dense layers run: the
  reference computes each as one product over all 100000 rows on the host, adding the bias and taking the positive part
  after the aggregation that precedes it; the kernel program computes each in a kernel over 20 blocks of 5000 rows, the
  bias and the positive part fused in front of the product, the operands rounded to bf16 (the identity on the extended
  reals).  A row of a product depends on the same row of the left operand only, so the 20 blocks are the blocks of the
  whole product (`Region0 … Region3`); the aggregations are one shared function that is never opened (`Stretch`); and
  both results are the same term `Stretch.net` of the arguments (`KernelChain.value`, `RefValue.value`).  No algebraic
  law beyond reading a matrix product as a sum is used, so the finiteness of the inputs is not needed.

  The three frame claims are the generated frames (the reference's: its run with the result dropped); no operation was
  rewritten by the idealization, so `preserves` is trivial.
-/
import proofs.«114022_j17540646437275_1_alg».proof.Defs
import proofs.«114022_j17540646437275_1_alg».proof.Proof.Gen.Kernel
import proofs.«114022_j17540646437275_1_alg».proof.Proof.Gen.Kernel.Skeleton
import proofs.«114022_j17540646437275_1_alg».proof.Proof.Gen.Kernel.Launch
import proofs.«114022_j17540646437275_1_alg».proof.Proof.Gen.Kernel.Points
import proofs.«114022_j17540646437275_1_alg».proof.Proof.Gen.Kernel.Frame
import proofs.«114022_j17540646437275_1_alg».proof.Proof.Gen.KernelIdeal
import proofs.«114022_j17540646437275_1_alg».proof.Proof.Gen.KernelIdeal.Skeleton
import proofs.«114022_j17540646437275_1_alg».proof.Proof.Gen.KernelIdeal.Launch
import proofs.«114022_j17540646437275_1_alg».proof.Proof.Gen.KernelIdeal.Points
import proofs.«114022_j17540646437275_1_alg».proof.Proof.Gen.KernelIdeal.Frame
import proofs.«114022_j17540646437275_1_alg».proof.Proof.Gen.ReferenceIdeal
import proofs.«114022_j17540646437275_1_alg».proof.Proof.Gen.Pre_finite_inputs
import proofs.«114022_j17540646437275_1_alg».proof.Proof.KernelRun
import proofs.«114022_j17540646437275_1_alg».proof.Proof.KernelChain
import proofs.«114022_j17540646437275_1_alg».proof.Proof.RefRunP
import proofs.«114022_j17540646437275_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments, both programs end with the result buffer at the network of those
    arguments. -/
theorem algebraic : Cert.algebraic_KernelIdeal_ReferenceIdeal := by
  intro m ρ m' ρ' _ hagree
  refine ⟨fun c => Cert.Stretch.net
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Chain.value m ρ c), (h c).2⟩)
      (Cert.KernelIdeal.Run.withResult (F := Ideal) m ρ)
  · refine (θ_run Cert.ReferenceIdeal.defs _ _).mono
      (fun _ h c => ⟨(h c).1.trans ((Cert.ReferenceIdeal.RefValue.value m' c).trans ?_), (h c).2⟩)
      (Cert.ReferenceIdeal.ValueP.run (F := Ideal) m' ρ')
    obtain ⟨a0, a1, a2, a3, a4, a5, a6, a7, a8, a9⟩ := hagree c
    rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
